-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S_ : Shape := ⟨0, ![]⟩
abbrev S16x64x258x258 : Shape := ⟨4, ![16, 64, 258, 258]⟩
abbrev S1024x258x258 : Shape := ⟨3, ![1024, 258, 258]⟩
abbrev S1024x256x256 : Shape := ⟨3, ![1024, 256, 256]⟩
abbrev S8x258x258 : Shape := ⟨3, ![8, 258, 258]⟩
abbrev S8x256x256 : Shape := ⟨3, ![8, 256, 256]⟩

abbrev nBuf : Space → Nat
  | .hbm => 6
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S16x64x258x258, .f32⟩
  | .hbm, ⟨3, _⟩ => ⟨S1024x258x258, .f32⟩
  | .hbm, ⟨4, _⟩ => ⟨S1024x256x256, .f32⟩
  | .hbm, ⟨5, _⟩ => ⟨S16x64x256x256, .f32⟩
  | .local _ .vmem, ⟨0, _⟩ => ⟨S8x258x258, .f32⟩
  | .local _ .vmem, ⟨1, _⟩ => ⟨S8x258x258, .f32⟩
  | .local _ .vmem, ⟨2, _⟩ => ⟨S8x256x256, .f32⟩
  | .local _ .vmem, ⟨3, _⟩ => ⟨S8x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  shapeCasts_S16x64x258x258_S1024x258x258 : S16x64x258x258.ShapeCasts S1024x258x258
  inb_S8x258x258_S8x258x258_0_0_0 : ∀ a, (![0, 0, 0] : Fin 3 → Nat) a + S8x258x258.size a ≤ S8x258x258.size a
  h_S8x258x258 : 0 < S8x258x258.numel
  shapeCasts_S8x258x258_S8x258x258 : S8x258x258.ShapeCasts S8x258x258
  slices_S8x258x258_o0_0_0_S8x256x256 : S8x258x258.Slices ![0, 0, 0] S8x256x256
  slices_S8x258x258_o0_0_1_S8x256x256 : S8x258x258.Slices ![0, 0, 1] S8x256x256
  slices_S8x258x258_o0_0_2_S8x256x256 : S8x258x258.Slices ![0, 0, 2] S8x256x256
  slices_S8x258x258_o0_1_0_S8x256x256 : S8x258x258.Slices ![0, 1, 0] S8x256x256
  slices_S8x258x258_o0_1_2_S8x256x256 : S8x258x258.Slices ![0, 1, 2] S8x256x256
  slices_S8x258x258_o0_2_0_S8x256x256 : S8x258x258.Slices ![0, 2, 0] S8x256x256
  slices_S8x258x258_o0_2_1_S8x256x256 : S8x258x258.Slices ![0, 2, 1] S8x256x256
  slices_S8x258x258_o0_2_2_S8x256x256 : S8x258x258.Slices ![0, 2, 2] S8x256x256
  inb_S8x256x256_S8x256x256_0_0_0 : ∀ a, (![0, 0, 0] : Fin 3 → Nat) a + S8x256x256.size a ≤ S8x256x256.size a
  h_S8x256x256 : 0 < S8x256x256.numel
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x258x258.size a ≤ S1024x258x258.size a
  hwx0_0 : ∀ i : grid0.Coords, EltTy.bits .f32 = 32 ∨ (Rect.block (s := S1024x258x258) S8x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S1024x256x256.size a
  hwx0_1 : ∀ i : grid0.Coords, EltTy.bits .f32 = 32 ∨ (Rect.block (s := S1024x256x256) S8x256x256.size (cc0_transform_1 i) (hinb0_1 i)).WholeWords (EltTy.packing .f32)

variable [Facts₀]

abbrev win0_0 : Pipeline.Window sig grid0 :=
  Pipeline.Window.ofSpec (Memref.whole main_v1) S8x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S_ : Shape := ⟨0, ![]⟩
abbrev S16x64x258x258 : Shape := ⟨4, ![16, 64, 258, 258]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S16x64x258x258, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S16x64x256x256, .f32⟩
  | .hbm, ⟨8, _⟩ => ⟨S16x64x256x256, .f32⟩
  | .hbm, ⟨9, _⟩ => ⟨S16x64x256x256, .f32⟩
  | .hbm, ⟨10, _⟩ => ⟨S16x64x256x256, .f32⟩
  | .hbm, ⟨11, _⟩ => ⟨S16x64x256x256, .f32⟩
  | .hbm, ⟨12, _⟩ => ⟨S16x64x256x256, .f32⟩
  | .hbm, ⟨13, _⟩ => ⟨S16x64x256x256, .f32⟩
  | .hbm, ⟨14, _⟩ => ⟨S16x64x256x256, .f32⟩
  | .hbm, ⟨15, _⟩ => ⟨S16x64x256x256, .f32⟩
  | .hbm, ⟨16, _⟩ => ⟨S16x64x256x256, .f32⟩
  | .hbm, ⟨17, _⟩ => ⟨S16x64x256x256, .f32⟩
  | .hbm, ⟨18, _⟩ => ⟨S16x64x256x256, .f32⟩
  | .hbm, ⟨19, _⟩ => ⟨S16x64x256x256, .f32⟩
  | .hbm, ⟨20, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  bcast_S_S16x64x256x256 : S_.BroadcastsInDim S16x64x256x256 (![] : Fin 0 → Fin S16x64x256x256.rank)
  slices_S16x64x258x258_S16x64x256x256_0_0_0_0 : S16x64x258x258.Slices ![0, 0, 0, 0] S16x64x256x256
  slices_S16x64x258x258_S16x64x256x256_0_0_0_1 : S16x64x258x258.Slices ![0, 0, 0, 1] S16x64x256x256
  slices_S16x64x258x258_S16x64x256x256_0_0_0_2 : S16x64x258x258.Slices ![0, 0, 0, 2] S16x64x256x256
  slices_S16x64x258x258_S16x64x256x256_0_0_1_0 : S16x64x258x258.Slices ![0, 0, 1, 0] S16x64x256x256
  slices_S16x64x258x258_S16x64x256x256_0_0_1_2 : S16x64x258x258.Slices ![0, 0, 1, 2] S16x64x256x256
  slices_S16x64x258x258_S16x64x256x256_0_0_2_0 : S16x64x258x258.Slices ![0, 0, 2, 0] S16x64x256x256
  slices_S16x64x258x258_S16x64x256x256_0_0_2_1 : S16x64x258x258.Slices ![0, 0, 2, 1] S16x64x256x256
  slices_S16x64x258x258_S16x64x256x256_0_0_2_2 : S16x64x258x258.Slices ![0, 0, 2, 2] S16x64x256x256

variable [Facts₀]

class Facts : Prop extends Facts₀ where

variable [Facts]
-- ==== Proof.MinPool.lean ====
/-
  The eight-neighbour minimum of a plane padded by one place on each side, as ONE function of the padded array.

  For an output position (r, q) of a 256 × 256 plane the eight neighbours are the padded plane's entries at
  (d + r, e + q) for (d, e) in {0, 1, 2}², the centre (1, 1) left out; their minimum is taken as a left fold in
  row-major order of (d, e). The same fold is stated for the three arrangements the two programs meet it in: a
  block of 8 planes, the 1024 planes as one rank-3 array, and the 16 × 64 planes as a rank-4 array. Moving from
  the rank-3 to the rank-4 arrangement is a change of row-major position only: plane n = 64·a + b is plane
  (a, b), and the position inside the plane is untouched, so the fold commutes with both reshapes.
-/
import Idealize.ShloMosaic.PureOps.Ideal
import Idealize.ShloMosaic.Lib.ValueIdx
import Idealize.ShloMosaic.Lib.Pipeline.Value

noncomputable section

namespace Cert.MinPool

open Idealize.ShloMosaic Idealize.ShloMosaic.ValueIdx

/-- The padded and unpadded arrays in their three arrangements. -/
abbrev Pad4 : Shape := ⟨4, ![16, 64, 258, 258]⟩
abbrev Out4 : Shape := ⟨4, ![16, 64, 256, 256]⟩
abbrev Pad3 : Shape := ⟨3, ![1024, 258, 258]⟩
abbrev Out3 : Shape := ⟨3, ![1024, 256, 256]⟩
abbrev PadB : Shape := ⟨3, ![8, 258, 258]⟩
abbrev OutB : Shape := ⟨3, ![8, 256, 256]⟩

/-- Position `r` of the unpadded plane moved `d` places (at most two) into the padded plane. -/
def up (d : Nat) (r : Fin 256) : Fin 258 := ⟨min d 2 + r.val, by have := r.isLt; omega⟩

theorem up_val (d : Nat) (hd : d ≤ 2) (r : Fin 256) : (up d r).val = d + r.val := by
  show min d 2 + r.val = d + r.val
  omega

/-- The fold of a binary operation over the eight neighbours of the 3 × 3 window, row by row, the centre left out. -/
def fold8 {α : Type} (mn : α → α → α) (f : Nat → Nat → α) : α :=
  mn (mn (mn (mn (mn (mn (mn (f 0 0) (f 0 1)) (f 0 2)) (f 1 0)) (f 1 2)) (f 2 0)) (f 2 1)) (f 2 2)

/-- The neighbour (d, e) of an output position, in the padded array: rank 3 and rank 4. -/
def shift3 (d e : Nat) (j : Out3.Idx) : Pad3.Idx := ix3 (n0 := 1024) (j 0) (up d (j 1)) (up e (j 2))
def shift4 (d e : Nat) (i : Out4.Idx) : Pad4.Idx := ix4 (n0 := 16) (n1 := 64) (i 0) (i 1) (up d (i 2)) (up e (i 3))

/-- The eight-neighbour fold of every position of a padded array: rank 3 and rank 4. -/
def pool3 {α : Type} (mn : α → α → α) (Q : Pad3.Idx → α) : Out3.Idx → α :=
  fun j => fold8 mn (fun d e => Q (shift3 d e j))
def pool4 {α : Type} (mn : α → α → α) (P : Pad4.Idx → α) : Out4.Idx → α :=
  fun i => fold8 mn (fun d e => P (shift4 d e i))

/-- A slice of a block of 8 padded planes at offsets (0, d, e), read at (b, r, q), is the block at (b, d + r, e + q). -/
theorem slice_block {α : Type} (d e : Nat) (hd : d ≤ 2) (he : e ≤ 2) (x : PadB.Idx → α)
    (h : PadB.Slices ![0, d, e] OutB) (b : Fin 8) (r q : Fin 256) :
    extractStridedSlice OutB ![0, d, e] x h (ix3 b r q) = x (ix3 b (up d r) (up e q)) :=
  extractStridedSlice_apply _ x h _ _ (fun a => match a with
    | ⟨0, _⟩ => by show b.val = 0 + b.val; omega
    | ⟨1, _⟩ => by show min d 2 + r.val = d + r.val; omega
    | ⟨2, _⟩ => by show min e 2 + q.val = e + q.val; omega)

/-- The fold commutes with the two reshapes: folding the 1024 planes of the reshaped padded array and reshaping
    the result back is folding the 16 × 64 planes. Plane 64·a + b of the rank-3 arrays is plane (a, b) of the
    rank-4 ones, and a position inside a plane keeps its place. -/
theorem pool_reshape {α : Type} (mn : α → α → α) (P : Pad4.Idx → α) (h1 : Pad4.ShapeCasts Pad3)
    (h2 : Out3.ShapeCasts Out4) :
    shapeCast Out4 (pool3 mn (shapeCast Pad3 P h1)) h2 = pool4 mn P := by
  funext i
  obtain ⟨a, b, r, q, rfl⟩ : ∃ (a : Fin 16) (b : Fin 64) (r q : Fin 256), i = ix4 a b r q :=
    ⟨i 0, i 1, i 2, i 3, eq_ix4 i⟩
  have hn : a.val * 64 + b.val < 1024 := by have := a.isLt; have := b.isLt; omega
  refine (shapeCast_apply _ h2 (ix4 a b r q) (ix3 (⟨a.val * 64 + b.val, hn⟩ : Fin 1024) r q) ?_).trans ?_
  · rw [Shape.rowMajor_val_three, Shape.rowMajor_val_four]
    rfl
  · unfold pool3 pool4
    refine congrArg (fold8 mn) (funext fun d => funext fun e => ?_)
    refine shapeCast_apply P h1 _ _ ?_
    rw [Shape.rowMajor_val_three, Shape.rowMajor_val_four]
    rfl

end Cert.MinPool

end
-- ==== Proof.Payload.lean ====
/-
  What the kernel body stores, read at one position. The body loads a block of 8 padded planes, takes eight
  unit-stride slices of it at the offsets (0, d, e) of the 3 × 3 window without its centre, and folds them with the
  pointwise minimum, first slice first. At position (b, r, q) of the 8 × 256 × 256 output block a slice at offset
  (0, d, e) is the loaded block at (b, d + r, e + q), so the stored value there is the eight-neighbour fold of plane
  b of the loaded block at (r, q).
-/
import proofs.«165922_j48756468744801_2_alg».proof.Proof.Gen.KernelIdeal.Skeleton
import proofs.«165922_j48756468744801_2_alg».proof.Proof.MinPool

noncomputable section

namespace Cert.KernelIdeal.PoolValue

open Cert.KernelIdeal Cert.KernelIdeal.Gen Idealize.ShloMosaic Idealize.ShloMosaic.ValueIdx Cert.MinPool

variable {F : FTy → Type} [FloatOps F]

/-- The stored value at (b, r, q): the fold of the minimum over the eight neighbours of (r, q) in plane b of the
    loaded block. -/
theorem payload_apply (x0 : Vec F S8x258x258 .f32) (b : Fin 8) (r q : Fin 256) :
    k0_pay1 x0 (ix3 b r q)
      = fold8 (FloatOps.minimumf (F := F) (φ := .f32)) (fun d e => x0 (ix3 b (up d r) (up e q))) := by
  unfold k0_pay1 fold8
  dsimp only [minimumf]
  rw [shapeCast_self]
  rw [slice_block 0 0 (by omega) (by omega), slice_block 0 1 (by omega) (by omega),
    slice_block 0 2 (by omega) (by omega), slice_block 1 0 (by omega) (by omega),
    slice_block 1 2 (by omega) (by omega), slice_block 2 0 (by omega) (by omega),
    slice_block 2 1 (by omega) (by omega), slice_block 2 2 (by omega) (by omega)]

end Cert.KernelIdeal.PoolValue

end
-- ==== Proof.Blocks.lean ====
/-
  From blocks to the array. Grid point t stages planes 8t … 8t + 7 of the padded rank-3 array and writes back planes
  8t … 8t + 7 of the result; both windows take the two plane axes whole. The neighbour (d, e) of position (r, q) in
  plane b of the staged block is therefore the neighbour (d, e) of position (r, q) in plane 8t + b of the whole padded
  array, so what point t writes back is block t of ONE function of the padded array: its eight-neighbour fold. The 128
  blocks tile the 1024 planes (plane n lies in block n / 8), so after the last point the result array is that fold
  everywhere.
-/
import proofs.«165922_j48756468744801_2_alg».proof.Proof.Gen.KernelIdeal.Frame
import proofs.«165922_j48756468744801_2_alg».proof.Proof.Payload
import Idealize.ShloMosaic.Lib.Pipeline.Value

noncomputable section

namespace Cert.KernelIdeal.PoolValue

open Cert.KernelIdeal Cert.KernelIdeal.Gen Idealize.ShloMosaic Idealize.ShloMosaic.TcCoe Idealize.SL.Sem
open Idealize.ShloMosaic.ValueIdx Cert.MinPool
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- What the body leaves in the output's staging buffer, at (b, r, q): its one store covers the buffer, so it is the
    stored value, the eight-neighbour fold of plane b of the staged block. -/
theorem out_apply (x0 : Vec F S8x258x258 .f32) (b : Fin 8) (r q : Fin 256) :
    out0_1 x0 (ix3 b r q)
      = fold8 (FloatOps.minimumf (F := F) (φ := .f32)) (fun d e => x0 (ix3 b (up d r) (up e q))) := by
  unfold out0_1
  rw [View.canon_unit_zero zero3, View.ld_unit_zero (S := S8x258x258) zero3]
  exact payload_apply x0 b r q

/-- The two index maps over the grid: both windows sit at the same block of planes and take the plane axes whole. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 127 :=
  (by decide +kernel : ∀ t : Fin grid0.N, _)

/-- Every block of 8 planes is some point's. -/
theorem idx_onto : ∀ n : Fin 128, ∃ t : Fin cfg0.N, win0_1.index t = ![n.val, 0, 0] :=
  (by decide +kernel : ∀ n : Fin 128, ∃ t : Fin grid0.N, win0_1.index t = ![n.val, 0, 0])

/-- The rank-3 result: the eight-neighbour fold of the padded array as the region finds it. -/
abbrev planes (c : Dev nD) : S1024x256x256.Idx → Elt F .f32 :=
  pool3 (FloatOps.minimumf (F := F) (φ := .f32)) (V m c main_v1)

/-- One neighbour: position (d + r, e + q) of plane b of the block staged at point t is the neighbour (d, e) of the
    position that (b, r, q) of the output block has in the whole array. -/
theorem tap_eq (c : Dev nD) (t : Fin cfg0.N) (b : Fin 8) (r q : Fin 256) (d e : Nat) :
    (iblk m c 0 t : Vec F S8x258x258 .f32) (ix3 b (up d r) (up e q))
      = (V m c main_v1 : S1024x258x258.Idx → Elt F .f32)
          (shift3 d e (((cfg0.win 1).blk t).view.emb (ix3 b r q))) := by
  obtain ⟨e0, e1, e2, e3, e4, e5⟩ := idx_facts t
  unfold iblk
  rw [View.read_apply]
  show V m c main_v1 _ = V m c main_v1 _
  refine congrArg (V m c main_v1) ?_
  funext a
  apply Fin.ext
  match a with
  | ⟨0, _⟩ =>
    show win0_0.index t (0 : Fin 3) * 8 + 1 * b.val = win0_1.index t (0 : Fin 3) * 8 + 1 * b.val
    omega
  | ⟨1, _⟩ =>
    show win0_0.index t (1 : Fin 3) * 258 + 1 * (min d 2 + r.val)
      = min d 2 + (win0_1.index t (1 : Fin 3) * 256 + 1 * r.val)
    omega
  | ⟨2, _⟩ =>
    show win0_0.index t (2 : Fin 3) * 258 + 1 * (min e 2 + q.val)
      = min e 2 + (win0_1.index t (2 : Fin 3) * 256 + 1 * q.val)
    omega

/-- WHAT POINT t WRITES BACK is block t of the eight-neighbour fold of the padded array. -/
theorem flushed_eq (c : Dev nD) (t : Fin cfg0.N) :
    (dats m 0 c).flushed 1 t = ((cfg0.win 1).blk t).view.read (Elt F) (planes m c) := by
  show (cfg0.win 1).cut (grid0.coords t) ((dats m 0 c).after 1 t) = _
  rw [after0_1]
  funext y
  obtain ⟨b, r, q, rfl⟩ : ∃ (b : Fin 8) (r q : Fin 256), y = ix3 b r q := ⟨y 0, y 1, y 2, eq_ix3 y⟩
  rw [View.read_apply]
  show out0_1 (iblk m c 0 t) (ix3 b r q) = planes m c (((cfg0.win 1).blk t).view.emb (ix3 b r q))
  refine (out_apply (iblk m c 0 t) b r q).trans ?_
  unfold planes pool3
  exact congrArg (fold8 _) (funext fun d => funext fun e => tap_eq m c t b r q d e)

/-- A plane index of the result is in point t's block iff each coordinate is in the block's range on its axis. -/
theorem mem_blk (t : Fin cfg0.N) (i : S1024x256x256.Idx) :
    i ∈ ((cfg0.win 1).blk t).view.set ↔ ∀ a : Fin 3, win0_1.index t a * S8x256x256.size a ≤ (i a).val
      ∧ (i a).val < win0_1.index t a * S8x256x256.size a + S8x256x256.size a := by
  show i ∈ ((View.whole main_v2).slice (win0_1.rect t)).set ↔ _
  rw [View.set_slice_whole, Rect.mem_set_unit]
  exact Iff.rfl

/-- The blocks tile the array: plane n is in the block of point n / 8. -/
theorem cover (i : S1024x256x256.Idx) :
    ∃ t : Fin cfg0.N, (cfg0.win 1).flush t = true ∧ i ∈ ((cfg0.win 1).blk t).view.set := by
  have h0 : (i 0).val < 1024 := (i 0).isLt
  have h1 : (i 1).val < 256 := (i 1).isLt
  have h2 : (i 2).val < 256 := (i 2).isLt
  obtain ⟨t, ht⟩ := idx_onto ⟨(i 0).val / 8, by omega⟩
  have q0 : win0_1.index t (0 : Fin 3) = (i 0).val / 8 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 256 ≤ (i 1).val ∧ (i 1).val < win0_1.index t (1 : Fin 3) * 256 + 256
    omega
  | ⟨2, _⟩ =>
    show win0_1.index t (2 : Fin 3) * 256 ≤ (i 2).val ∧ (i 2).val < win0_1.index t (2 : Fin 3) * 256 + 256
    omega

/-- THE RESULT ARRAY after the last point: the eight-neighbour fold of the padded array, every plane. -/
theorem final (c : Dev nD) : (dats m 0 c).arrAt 1 cfg0.N = planes m c :=
  (dats m 0 c).arrAt_eq_of_cover 1 (planes m c) (fun t _ => flushed_eq m c t) cover

end Cert.KernelIdeal.PoolValue

end
-- ==== Proof.Host.lean ====
/-
  The host operations around the region. Before it: the argument is padded by one place of +infinity on each side of
  both plane axes, and the padded array is reshaped so that its 16 × 64 planes become 1024 planes; that reshaped array
  is what the region's input window stages. After it: the region's output array of 1024 planes is reshaped back to
  16 × 64 planes, and that is the program's result.
-/
import proofs.«165922_j48756468744801_2_alg».proof.Proof.Gen.KernelIdeal.Frame
import Idealize.ShloMosaic.Lib.Pipeline.Value
import Idealize.ShloMosaic.Lib.StableHlo.Run

noncomputable section

namespace Cert.KernelIdeal.PoolValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The argument padded by one place of +infinity on each side of both plane axes. -/
abbrev padded (c : Dev nD) : S16x64x258x258.Idx → Elt F .f32 :=
  pad S16x64x258x258 ![0, 0, 1, 1] ![0, 0, 1, 1] ![0, 0, 0, 0] (m ((c : Thread nD τ).loc main_arg0))
    (constant (F := F) S_ .f32 0x7F800000#32) pads_S16x64x256x256_S16x64x258x258_000_000_110_110 h_S_

/-- What the region's input window stages: the padded argument, its planes renumbered 0 … 1023. -/
theorem entry_v1 (c : Dev nD) :
    (V m c main_v1 : S1024x258x258.Idx → Elt F .f32)
      = shapeCast S1024x258x258 (padded m c) shapeCasts_S16x64x258x258_S1024x258x258 := by
  dsimp only [V, V0]
  simp only [hostOps0, hostOps0_1, hostOps0_2, List.flatten_cons, List.flatten_nil, List.append_nil,
    List.cons_append, List.nil_append]
  after_results
  rfl

/-- The program's result: the region's output array, its 1024 planes renumbered (a, b). -/
theorem tail_v3 (c : Dev nD) :
    (Pipeline.afterTail₀ cfgs (dats m) 0 (V0 m) [hostOps1] c main_v3 : S16x64x256x256.Idx → Elt F .f32)
      = shapeCast S16x64x256x256 ((dats m 0 c).arrAt 1 cfg0.N : S1024x256x256.Idx → Elt F .f32)
          shapeCasts_S1024x256x256_S16x64x256x256 := by
  unfold Pipeline.afterTail₀
  show StableHlo.after hostOps1 _ (Proc.devRef .tc main_v3) = _
  after_results
  have e := Pipeline.withArrays_arr spec0 launch0.win.arr_inj c (V0 m c)
    (fun w => (dats m 0 c).arrAt w cfg0.N) 1
  funext i
  show shapeCast S16x64x256x256 (Pipeline.withArrays spec0 c (V0 m c)
      (fun w => (dats m 0 c).arrAt w cfg0.N) (Proc.devRef .tc (Pipeline.arrRef spec0 1)))
    shapeCasts_S1024x256x256_S16x64x256x256 i = _
  rw [e]

end Cert.KernelIdeal.PoolValue

end
-- ==== Proof.KernelRun.lean ====
/-
  The kernel program's run, read. The result is the reshape of the region's output array; that array is the
  eight-neighbour fold of the region's input array; the input array is the reshape of the padded argument. The fold
  commutes with the two reshapes, so the result is the eight-neighbour fold of the padded argument, plane by plane,
  and the argument ends unchanged.
-/
import proofs.«165922_j48756468744801_2_alg».proof.Proof.Blocks
import proofs.«165922_j48756468744801_2_alg».proof.Proof.Host

noncomputable section

namespace Cert.KernelIdeal.PoolValue

open Cert.KernelIdeal Cert.KernelIdeal.Gen Idealize.ShloMosaic Idealize.ShloMosaic.TcCoe Idealize.SL.Sem
open Idealize.ShloMosaic.ValueIdx Cert.MinPool
open Idealize.ShloMosaic.Pipeline (Dat)

variable {F : FTy → Type} [FloatOps F]
variable (m : (ℓ : Loc nD τ sig) → Buf (Elt F) ℓ) (ρ : Dev nD → PrngReg)

/-- The program's result is the eight-neighbour fold of the padded argument. -/
theorem result_eq (c : Dev nD) :
    (Pipeline.afterTail₀ cfgs (dats m) 0 (V0 m) [hostOps1] c main_v3 : S16x64x256x256.Idx → Elt F .f32)
      = pool4 (FloatOps.minimumf (F := F) (φ := .f32)) (padded m c) := by
  refine (tail_v3 m c).trans ?_
  rw [final m c]
  unfold planes
  rw [entry_v1 m c]
  exact pool_reshape _ (padded m c) _ _

/-- Every weakly fair execution of the program terminates with the result array at the eight-neighbour fold of the
    padded argument and the argument unchanged. -/
theorem run : θ_run defs (onTc (τ := τ) (main (F := F))) ⟨m, fun _ => 0, ρ⟩ fun r => ∀ c : Dev nD,
      r.2.mem ((c.tc : Thread nD τ).loc main_v3)
        = pool4 (FloatOps.minimumf (F := F) (φ := .f32)) (padded m c)
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans
         (W_main_arg0 m (dats m) c)⟩)
    (run_main m ρ)

end Cert.KernelIdeal.PoolValue

end
-- ==== Proof.RefValue.lean ====
/-
  The reference, read index by index. It pads the argument exactly as the kernel's program does, takes eight
  unit-stride slices of the padded array at the offsets (0, 0, d, e) of the 3 × 3 window without its centre, and folds
  them with the pointwise minimum in row-major order of (d, e), starting from an array filled with +infinity. A slice
  at offset (0, 0, d, e) read at i is the padded array at the neighbour (d, e) of i. On the extended reals +infinity is
  the top element and the minimum of top and x is x, so the fold's starting value drops out and the reference is the
  eight-neighbour fold of the padded array. No finiteness of the entries is used: the minimum is a lattice operation.
-/
import proofs.«165922_j48756468744801_2_alg».proof.Proof.Gen.ReferenceIdeal.Read
import proofs.«165922_j48756468744801_2_alg».proof.Proof.MinPool
import Idealize.ShloMosaic.PureOps.Ideal

noncomputable section

namespace Cert.ReferenceIdeal.RefValue

open Cert.ReferenceIdeal Cert.ReferenceIdeal.Gen Cert.ReferenceIdeal.Read
open Idealize.ShloMosaic Idealize.ShloMosaic.ValueIdx Cert.MinPool

/-- The bit pattern of +infinity denotes the top of the extended reals. -/
theorem inf_top : Ideal.ofBits .f32 0x7F800000#32 = (⊤ : EReal) := by
  simp [Ideal.ofBits, Ideal.ieee]

/-- An index of the padded array whose plane coordinates are i's and whose in-plane coordinates are i's moved by
    (d, e) is the neighbour (d, e) of i. -/
theorem eq_shift4 (d e : Nat) (hd : d ≤ 2) (he : e ≤ 2) (i : S16x64x256x256.Idx) (k : S16x64x258x258.Idx)
    (h0 : (k 0).val = (i 0).val) (h1 : (k 1).val = (i 1).val)
    (h2 : (k 2).val = d + (i 2).val) (h3 : (k 3).val = e + (i 3).val) : k = shift4 d e i := by
  funext a
  apply Fin.ext
  match a with
  | ⟨0, _⟩ => exact h0
  | ⟨1, _⟩ => exact h1
  | ⟨2, _⟩ =>
    show (k 2).val = min d 2 + (i 2).val
    omega
  | ⟨3, _⟩ =>
    show (k 3).val = min e 2 + (i 3).val
    omega

/-- The reference's result is the eight-neighbour fold of its padded array. -/
theorem ref_eq (x0 : (⟨S16x64x256x256, .f32⟩ : BufTy).Contents (Elt Ideal)) :
    val_main_v17 (F := Ideal) x0
      = pool4 (FloatOps.minimumf (F := Ideal) (φ := .f32)) (val_main_v0 (F := Ideal) x0) := by
  funext i
  rw [val_main_v17_apply, val_main_v15_apply, val_main_v13_apply, val_main_v11_apply, val_main_v9_apply,
    val_main_v7_apply, val_main_v5_apply, val_main_v3_apply, val_main_v16_apply, val_main_v14_apply,
    val_main_v12_apply, val_main_v10_apply, val_main_v8_apply, val_main_v6_apply, val_main_v4_apply,
    val_main_v2_apply, val_main_v1_apply, val_main_cst_0_apply]
  rw [eq_shift4 0 0 (by omega) (by omega) i (idx_main_v2 i) rfl rfl (by show (i 2).val = 0 + (i 2).val; omega)
      (by show (i 3).val = 0 + (i 3).val; omega),
    eq_shift4 0 1 (by omega) (by omega) i (idx_main_v4 i) rfl rfl (by show (i 2).val = 0 + (i 2).val; omega) rfl,
    eq_shift4 0 2 (by omega) (by omega) i (idx_main_v6 i) rfl rfl (by show (i 2).val = 0 + (i 2).val; omega) rfl,
    eq_shift4 1 0 (by omega) (by omega) i (idx_main_v8 i) rfl rfl rfl (by show (i 3).val = 0 + (i 3).val; omega),
    eq_shift4 1 2 (by omega) (by omega) i (idx_main_v10 i) rfl rfl rfl rfl,
    eq_shift4 2 0 (by omega) (by omega) i (idx_main_v12 i) rfl rfl rfl (by show (i 3).val = 0 + (i 3).val; omega),
    eq_shift4 2 1 (by omega) (by omega) i (idx_main_v14 i) rfl rfl rfl rfl,
    eq_shift4 2 2 (by omega) (by omega) i (idx_main_v16 i) rfl rfl rfl rfl]
  unfold pool4 fold8
  simp only [Ideal.minimumf_def, Ideal.ofBits_def, inf_top, min_top_left]

end Cert.ReferenceIdeal.RefValue

end
-- ==== Proof.lean ====
/-
  The two programs compute the same array on the extended reals.

  Both pad the argument x : f32[16, 64, 256, 256] by one place of +infinity on each side of the two plane axes. The
  reference folds the pointwise minimum over the eight slices of the padded array at the offsets of the 3 × 3 window
  without its centre, starting from +infinity. The kernel's program renumbers the 16 × 64 planes as 1024, hands them to
  the kernel eight at a time, folds the same eight slices inside each block starting from the first slice, and
  renumbers the planes back. At every position both results are the minimum over the eight neighbours, folded in the
  same order; the reference's extra starting value is the top element, and min(top, x) = x. Blocks, plane
  renumbering and the slices only move indices. The claim needs no hypothesis on x: the minimum is a lattice operation
  and behaves the same at the infinities.

  The three frames are the generated frame runs (the reference's is its generated run with the result dropped); the
  idealization rewrote nothing, so there is nothing to preserve.
-/
import proofs.«165922_j48756468744801_2_alg».proof.Defs
import proofs.«165922_j48756468744801_2_alg».proof.Proof.Gen.Kernel
import proofs.«165922_j48756468744801_2_alg».proof.Proof.Gen.Kernel.Frame
import proofs.«165922_j48756468744801_2_alg».proof.Proof.Gen.KernelIdeal
import proofs.«165922_j48756468744801_2_alg».proof.Proof.Gen.KernelIdeal.Frame
import proofs.«165922_j48756468744801_2_alg».proof.Proof.Gen.ReferenceIdeal
import proofs.«165922_j48756468744801_2_alg».proof.Proof.Gen.ReferenceIdeal.Run
import proofs.«165922_j48756468744801_2_alg».proof.Proof.Gen.ReferenceIdeal.Read
import proofs.«165922_j48756468744801_2_alg».proof.Proof.Gen.Pre_finite_inputs
import proofs.«165922_j48756468744801_2_alg».proof.Proof.KernelRun
import proofs.«165922_j48756468744801_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the eight-neighbour fold of the padded argument: the kernel's by its run read through
    blocks and reshapes, the reference's by its run read index by index; the padded arrays are one term once the
    arguments agree. -/
theorem algebraic : Cert.algebraic_KernelIdeal_ReferenceIdeal := by
  intro m ρ m' ρ' _ hagree
  refine ⟨fun c => Cert.MinPool.pool4 (FloatOps.minimumf (F := Ideal) (φ := .f32))
      (Cert.KernelIdeal.PoolValue.padded m c), Cert.KernelIdeal.PoolValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
